-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x512 : Shape := ⟨2, ![1024, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x1024 .f32) (main_arg1 : FVec F S1024x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S16384x1024 : Shape := ⟨2, ![16384, 1024]⟩
abbrev S1024x512 : Shape := ⟨2, ![1024, 512]⟩
abbrev S16384x16 : Shape := ⟨2, ![16384, 16]⟩
abbrev S1024x1024 : Shape := ⟨2, ![1024, 1024]⟩
abbrev S1024x16 : Shape := ⟨2, ![1024, 16]⟩
abbrev S1024x32x16 : Shape := ⟨3, ![1024, 32, 16]⟩
abbrev S1024x32x1 : Shape := ⟨3, ![1024, 32, 1]⟩
abbrev S1024x1 : Shape := ⟨2, ![1024, 1]⟩
abbrev S1024x1x1 : Shape := ⟨3, ![1024, 1, 1]⟩
abbrev S1024x1x16 : Shape := ⟨3, ![1024, 1, 16]⟩
abbrev S1024x32 : Shape := ⟨2, ![1024, 32]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x16, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x16, .f32⟩
  | .local _ .vmem, ⟨4, _⟩ => ⟨S1024x16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x32x16 : S1024x512.ShapeCasts S1024x32x16
  reduces_S1024x32x1_S1024x1 : S1024x32x1.Reduces [1] S1024x1
  shapeCasts_S1024x1_S1024x1x1 : S1024x1.ShapeCasts S1024x1x1
  broadcasts_S1024x1x1_S1024x32x1 : S1024x1x1.Broadcasts S1024x32x1
  broadcasts_S1024x32x1_S1024x32x16 : S1024x32x1.Broadcasts S1024x32x16
  reduces_S1024x32x16_S1024x16 : S1024x32x16.Reduces [1] S1024x16
  shapeCasts_S1024x16_S1024x1x16 : S1024x16.ShapeCasts S1024x1x16
  reduces_S1024x1x16_S1024x1 : S1024x1x16.Reduces [2] S1024x1
  broadcasts_S1024x1x1_S1024x1x16 : S1024x1x1.Broadcasts S1024x1x16
  broadcasts_S1024x1x16_S1024x32x16 : S1024x1x16.Broadcasts S1024x32x16
  reduces_S1024x32x16_S1024x32 : S1024x32x16.Reduces [2] S1024x32
  shapeCasts_S1024x32_S1024x32x1 : S1024x32.ShapeCasts S1024x32x1
  shapeCasts_S1024x1x16_S1024x16 : S1024x1x16.ShapeCasts S1024x16
  inb_S1024x16_S1024x16_0_0 : ∀ a, (![0, 0] : Fin 2 → Nat) a + S1024x16.size a ≤ S1024x16.size a
  h_S1024x16 : 0 < S1024x16.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x512 : Shape := ⟨2, ![1024, 512]⟩
abbrev S16384x512 : Shape := ⟨2, ![16384, 512]⟩
abbrev S16384x32x16 : Shape := ⟨3, ![16384, 32, 16]⟩
abbrev S_ : Shape := ⟨0, ![]⟩
abbrev S16384x32x1 : Shape := ⟨3, ![16384, 32, 1]⟩
abbrev S16384x1 : Shape := ⟨2, ![16384, 1]⟩
abbrev S16384x1x1 : Shape := ⟨3, ![16384, 1, 1]⟩
abbrev S16384x16 : Shape := ⟨2, ![16384, 16]⟩
abbrev S16384x1x16 : Shape := ⟨3, ![16384, 1, 16]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x32x16, .f32⟩
  | .hbm, ⟨4, _⟩ => ⟨S_, .f32⟩
  | .hbm, ⟨5, _⟩ => ⟨S16384x32x1, .f32⟩
  | .hbm, ⟨6, _⟩ => ⟨S_, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1x1, .f32⟩
  | .hbm, ⟨12, _⟩ => ⟨S16384x32x1, .f32⟩
  | .hbm, ⟨13, _⟩ => ⟨S16384x32x1, .f32⟩
  | .hbm, ⟨14, _⟩ => ⟨S16384x32x1, .f32⟩
  | .hbm, ⟨15, _⟩ => ⟨S_, .f32⟩
  | .hbm, ⟨16, _⟩ => ⟨S16384x1, .f32⟩
  | .hbm, ⟨17, _⟩ => ⟨S16384x1x1, .f32⟩
  | .hbm, ⟨18, _⟩ => ⟨S16384x32x1, .f32⟩
  | .hbm, ⟨19, _⟩ => ⟨S16384x32x1, .f32⟩
  | .hbm, ⟨20, _⟩ => ⟨S16384x32x16, .f32⟩
  | .hbm, ⟨21, _⟩ => ⟨S16384x32x16, .f32⟩
  | .hbm, ⟨22, _⟩ => ⟨S_, .f32⟩
  | .hbm, ⟨23, _⟩ => ⟨S16384x16, .f32⟩
  | .hbm, ⟨24, _⟩ => ⟨S16384x1x16, .f32⟩
  | .hbm, ⟨25, _⟩ => ⟨S16384x1x16, .f32⟩
  | .hbm, ⟨26, _⟩ => ⟨S_, .f32⟩
  | .hbm, ⟨27, _⟩ => ⟨S16384x1, .f32⟩
  | .hbm, ⟨28, _⟩ => ⟨S16384x1x1, .f32⟩
  | .hbm, ⟨29, _⟩ => ⟨S_, .f32⟩
  | .hbm, ⟨30, _⟩ => ⟨S16384x1x1, .f32⟩
  | .hbm, ⟨31, _⟩ => ⟨S16384x1x1, .f32⟩
  | .hbm, ⟨32, _⟩ => ⟨S16384x1x1, .f32⟩
  | .hbm, ⟨33, _⟩ => ⟨S_, .f32⟩
  | .hbm, ⟨34, _⟩ => ⟨S16384x1x1, .f32⟩
  | .hbm, ⟨35, _⟩ => ⟨S16384x1x1, .f32⟩
  | .hbm, ⟨36, _⟩ => ⟨S16384x1x1, .f32⟩
  | .hbm, ⟨37, _⟩ => ⟨S16384x1x1, .f32⟩
  | .hbm, ⟨38, _⟩ => ⟨S16384x1x16, .f32⟩
  | .hbm, ⟨39, _⟩ => ⟨S16384x1x16, .f32⟩
  | .hbm, ⟨40, _⟩ => ⟨S16384x32x1, .f32⟩
  | .hbm, ⟨41, _⟩ => ⟨S16384x32x1, .f32⟩
  | .hbm, ⟨42, _⟩ => ⟨S_, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1x1, .f32⟩
  | .hbm, ⟨48, _⟩ => ⟨S16384x32x1, .f32⟩
  | .hbm, ⟨49, _⟩ => ⟨S16384x32x1, .f32⟩
  | .hbm, ⟨50, _⟩ => ⟨S16384x32x1, .f32⟩
  | .hbm, ⟨51, _⟩ => ⟨S_, .f32⟩
  | .hbm, ⟨52, _⟩ => ⟨S16384x1, .f32⟩
  | .hbm, ⟨53, _⟩ => ⟨S16384x1x1, .f32⟩
  | .hbm, ⟨54, _⟩ => ⟨S16384x32x1, .f32⟩
  | .hbm, ⟨55, _⟩ => ⟨S16384x32x1, .f32⟩
  | .hbm, ⟨56, _⟩ => ⟨S16384x32x16, .f32⟩
  | .hbm, ⟨57, _⟩ => ⟨S16384x32x16, .f32⟩
  | .hbm, ⟨58, _⟩ => ⟨S_, .f32⟩
  | .hbm, ⟨59, _⟩ => ⟨S16384x16, .f32⟩
  | .hbm, ⟨60, _⟩ => ⟨S16384x1x16, .f32⟩
  | .hbm, ⟨61, _⟩ => ⟨S16384x1x16, .f32⟩
  | .hbm, ⟨62, _⟩ => ⟨S_, .f32⟩
  | .hbm, ⟨63, _⟩ => ⟨S16384x1, .f32⟩
  | .hbm, ⟨64, _⟩ => ⟨S16384x1x1, .f32⟩
  | .hbm, ⟨65, _⟩ => ⟨S_, .f32⟩
  | .hbm, ⟨66, _⟩ => ⟨S16384x1x1, .f32⟩
  | .hbm, ⟨67, _⟩ => ⟨S16384x1x1, .f32⟩
  | .hbm, ⟨68, _⟩ => ⟨S16384x1x1, .f32⟩
  | .hbm, ⟨69, _⟩ => ⟨S_, .f32⟩
  | .hbm, ⟨70, _⟩ => ⟨S16384x1x1, .f32⟩
  | .hbm, ⟨71, _⟩ => ⟨S16384x1x1, .f32⟩
  | .hbm, ⟨72, _⟩ => ⟨S16384x1x1, .f32⟩
  | .hbm, ⟨73, _⟩ => ⟨S16384x1x1, .f32⟩
  | .hbm, ⟨74, _⟩ => ⟨S16384x1x16, .f32⟩
  | .hbm, ⟨75, _⟩ => ⟨S16384x1x16, .f32⟩
  | .hbm, ⟨76, _⟩ => ⟨S16384x32x1, .f32⟩
  | .hbm, ⟨77, _⟩ => ⟨S16384x32x1, .f32⟩
  | .hbm, ⟨78, _⟩ => ⟨S_, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1x1, .f32⟩
  | .hbm, ⟨84, _⟩ => ⟨S16384x32x1, .f32⟩
  | .hbm, ⟨85, _⟩ => ⟨S16384x32x1, .f32⟩
  | .hbm, ⟨86, _⟩ => ⟨S16384x32x1, .f32⟩
  | .hbm, ⟨87, _⟩ => ⟨S_, .f32⟩
  | .hbm, ⟨88, _⟩ => ⟨S16384x1, .f32⟩
  | .hbm, ⟨89, _⟩ => ⟨S16384x1x1, .f32⟩
  | .hbm, ⟨90, _⟩ => ⟨S16384x32x1, .f32⟩
  | .hbm, ⟨91, _⟩ => ⟨S16384x32x1, .f32⟩
  | .hbm, ⟨92, _⟩ => ⟨S16384x32x16, .f32⟩
  | .hbm, ⟨93, _⟩ => ⟨S16384x32x16, .f32⟩
  | .hbm, ⟨94, _⟩ => ⟨S_, .f32⟩
  | .hbm, ⟨95, _⟩ => ⟨S16384x16, .f32⟩
  | .hbm, ⟨96, _⟩ => ⟨S16384x1x16, .f32⟩
  | .hbm, ⟨97, _⟩ => ⟨S16384x1x16, .f32⟩
  | .hbm, ⟨98, _⟩ => ⟨S_, .f32⟩
  | .hbm, ⟨99, _⟩ => ⟨S16384x1, .f32⟩
  | .hbm, ⟨100, _⟩ => ⟨S16384x1x1, .f32⟩
  | .hbm, ⟨101, _⟩ => ⟨S_, .f32⟩
  | .hbm, ⟨102, _⟩ => ⟨S16384x1x1, .f32⟩
  | .hbm, ⟨103, _⟩ => ⟨S16384x1x1, .f32⟩
  | .hbm, ⟨104, _⟩ => ⟨S16384x1x1, .f32⟩
  | .hbm, ⟨105, _⟩ => ⟨S_, .f32⟩
  | .hbm, ⟨106, _⟩ => ⟨S16384x1x1, .f32⟩
  | .hbm, ⟨107, _⟩ => ⟨S16384x1x1, .f32⟩
  | .hbm, ⟨108, _⟩ => ⟨S16384x1x1, .f32⟩
  | .hbm, ⟨109, _⟩ => ⟨S16384x1x1, .f32⟩
  | .hbm, ⟨110, _⟩ => ⟨S16384x1x16, .f32⟩
  | .hbm, ⟨111, _⟩ => ⟨S16384x1x16, .f32⟩
  | .hbm, ⟨112, _⟩ => ⟨S16384x32x1, .f32⟩
  | .hbm, ⟨113, _⟩ => ⟨S16384x32x1, .f32⟩
  | .hbm, ⟨114, _⟩ => ⟨S16384x16, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_v48 : Ref sig .tc := ⟨.hbm, 63, rfl⟩
abbrev main_v49 : Ref sig .tc := ⟨.hbm, 64, rfl⟩
abbrev main_cst_12 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_14 : Ref sig .tc := ⟨.hbm, 78, rfl⟩
abbrev main_v61 : Ref sig .tc := ⟨.hbm, 79, rfl⟩
abbrev main_cst_15 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_16 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_17 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_18 : Ref sig .tc := ⟨.hbm, 98, rfl⟩
abbrev main_v77 : Ref sig .tc := ⟨.hbm, 99, rfl⟩
abbrev main_v78 : Ref sig .tc := ⟨.hbm, 100, rfl⟩
abbrev main_cst_19 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_20 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]

class Facts₀ : Prop where
  shapeCasts_S16384x512_S16384x32x16 : S16384x512.ShapeCasts S16384x32x16
  bcast_S_S16384x32x1 : S_.BroadcastsInDim S16384x32x1 (![] : Fin 0 → Fin S16384x32x1.rank)
  reducesTo_S16384x32x1_S16384x1_d1 : S16384x32x1.ReducesTo [1] S16384x1
  h_S_ : 0 < S_.numel
  bcast_S_S16384x1 : S_.BroadcastsInDim S16384x1 (![] : Fin 0 → Fin S16384x1.rank)
  bcast_S16384x1_S16384x1x1_0_2 : S16384x1.BroadcastsInDim S16384x1x1 (![0, 2] : Fin 2 → Fin S16384x1x1.rank)
  bcast_S16384x1x1_S16384x32x1_0_1_2 : S16384x1x1.BroadcastsInDim S16384x32x1 (![0, 1, 2] : Fin 3 → Fin S16384x32x1.rank)
  bcast_S16384x32x1_S16384x32x16_0_1_2 : S16384x32x1.BroadcastsInDim S16384x32x16 (![0, 1, 2] : Fin 3 → Fin S16384x32x16.rank)
  reducesTo_S16384x32x16_S16384x16_d1 : S16384x32x16.ReducesTo [1] S16384x16
  bcast_S16384x16_S16384x1x16_0_2 : S16384x16.BroadcastsInDim S16384x1x16 (![0, 2] : Fin 2 → Fin S16384x1x16.rank)
  reducesTo_S16384x1x16_S16384x1_d2 : S16384x1x16.ReducesTo [2] S16384x1
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S16384x1x1_S16384x1x16_0_1_2 : S16384x1x1.BroadcastsInDim S16384x1x16 (![0, 1, 2] : Fin 3 → Fin S16384x1x16.rank)
  shapeCasts_S16384x1x16_S16384x16 : S16384x1x16.ShapeCasts S16384x16
  dot_S16384x1024_S1024x512_S16384x512_1_0_0_1_n_n_wf : DotDims.WF S16384x1024 S1024x512 S16384x512 [1] [0] [0] [1] [] []
  dot_S16384x32x16_S16384x1x16_S16384x32x1_2_2_1_1_0_0_wf : DotDims.WF S16384x32x16 S16384x1x16 S16384x32x1 [2] [2] [1] [1] [0] [0]

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x32x16_S16384x1x16_S16384x32x1_2_2_1_1_0_0 : DotDims S16384x32x16 S16384x1x16 S16384x32x1 where
  lhsContracting := [2]
  rhsContracting := [2]
  lhsNonContracting := [1]
  rhsNonContracting := [1]
  lhsBatch := [0]
  rhsBatch := [0]
  wf := dot_S16384x32x16_S16384x1x16_S16384x32x1_2_2_1_1_0_0_wf

class Facts : Prop extends Facts₀ where

variable [Facts]
-- ==== Proof.LibRank3.lean ====
/-
  Rank-3 arrays with kept unit axes, read at an index (general lemmas; no program is imported).

  A computation over rows of an [a, n, d] array (a rows, n groups, d lanes) that reduces over the groups or over the lanes
  and keeps the reduced axis as a unit axis passes through arrays of shapes [a, 1], [a, n], [a, d], [a, 1, 1], [a, n, 1] and
  [a, 1, d]. A vector unit spells the steps between them as shape casts and broadcasts, a host program as
  broadcast_in_dim with a list of target axes; a reduction over one axis is a sum (or a running maximum) over that axis's
  coordinates. Each lemma reads one such step at an index named by its coordinates, for any element type and any extents.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

namespace Cert.LibRank3

open Idealize.ShloMosaic Idealize.ShloMosaic.ValueIdx

variable {α : Type}

/-! ## Shape casts that add or drop a unit axis -/

/-- An [a, 1] column recast as [a, 1, 1] reads, at (r, u, v), the column's entry r. -/
theorem shapeCast_a1_a11_apply {a : ℕ} (x : (⟨2, ![a, 1]⟩ : Shape).Idx → α)
    (h : (⟨2, ![a, 1]⟩ : Shape).ShapeCasts ⟨3, ![a, 1, 1]⟩) (r : Fin a) (u v : Fin 1) :
    shapeCast ⟨3, ![a, 1, 1]⟩ x h (ix3 r u v) = x (ix2 r (0 : Fin 1)) :=
  shapeCast_apply x h _ _ (by
    have hu : u.val = 0 := by omega
    have hv : v.val = 0 := by omega
    rw [Shape.rowMajor_val_two, Shape.rowMajor_val_three]
    show r.val * 1 + 0 = (r.val * 1 + u.val) * 1 + v.val
    omega)

/-- An [a, d] array recast as [a, 1, d] reads, at (r, u, c), the array at (r, c). -/
theorem shapeCast_ad_a1d_apply {a d : ℕ} (x : (⟨2, ![a, d]⟩ : Shape).Idx → α)
    (h : (⟨2, ![a, d]⟩ : Shape).ShapeCasts ⟨3, ![a, 1, d]⟩) (r : Fin a) (u : Fin 1) (c : Fin d) :
    shapeCast ⟨3, ![a, 1, d]⟩ x h (ix3 r u c) = x (ix2 r c) :=
  shapeCast_apply x h _ _ (by
    have hu : u.val = 0 := by omega
    rw [Shape.rowMajor_val_two, Shape.rowMajor_val_three]
    show r.val * d + c.val = (r.val * 1 + u.val) * d + c.val
    rw [hu, Nat.mul_one, Nat.add_zero])

/-- An [a, n] array recast as [a, n, 1] reads, at (r, k, u), the array at (r, k). -/
theorem shapeCast_an_an1_apply {a n : ℕ} (x : (⟨2, ![a, n]⟩ : Shape).Idx → α)
    (h : (⟨2, ![a, n]⟩ : Shape).ShapeCasts ⟨3, ![a, n, 1]⟩) (r : Fin a) (k : Fin n) (u : Fin 1) :
    shapeCast ⟨3, ![a, n, 1]⟩ x h (ix3 r k u) = x (ix2 r k) :=
  shapeCast_apply x h _ _ (by
    have hu : u.val = 0 := by omega
    rw [Shape.rowMajor_val_two, Shape.rowMajor_val_three]
    show r.val * n + k.val = (r.val * n + k.val) * 1 + u.val
    rw [hu, Nat.mul_one, Nat.add_zero])

/-- An [a, 1, d] array recast as [a, d] reads, at (r, c), the array at (r, 0, c). -/
theorem shapeCast_a1d_ad_apply {a d : ℕ} (x : (⟨3, ![a, 1, d]⟩ : Shape).Idx → α)
    (h : (⟨3, ![a, 1, d]⟩ : Shape).ShapeCasts ⟨2, ![a, d]⟩) (r : Fin a) (c : Fin d) :
    shapeCast ⟨2, ![a, d]⟩ x h (ix2 r c) = x (ix3 r (0 : Fin 1) c) :=
  shapeCast_apply x h _ _ (by
    rw [Shape.rowMajor_val_two, Shape.rowMajor_val_three]
    show (r.val * 1 + 0) * d + c.val = r.val * d + c.val
    rw [Nat.mul_one, Nat.add_zero])

/-- An [a, 512] array recast as [a, 32, 16] (each row cut into 32 groups of 16 lanes) reads, at (r, k, c), the row's
    entry 16 k + c. -/
theorem shapeCast_a512_a32x16_apply {a : ℕ} (x : (⟨2, ![a, 512]⟩ : Shape).Idx → α)
    (h : (⟨2, ![a, 512]⟩ : Shape).ShapeCasts ⟨3, ![a, 32, 16]⟩) (r : Fin a) (k : Fin 32) (c : Fin 16) :
    shapeCast ⟨3, ![a, 32, 16]⟩ x h (ix3 r k c) = x (ix2 r (⟨k.val * 16 + c.val, by omega⟩ : Fin 512)) :=
  shapeCast_apply x h _ _ (by
    rw [Shape.rowMajor_val_two, Shape.rowMajor_val_three]
    show r.val * 512 + (k.val * 16 + c.val) = (r.val * 32 + k.val) * 16 + c.val
    omega)

/-! ## Broadcasts along a unit axis, as a vector unit spells them -/

/-- An [a, 1, 1] array broadcast to [a, n, 1] reads, at (r, k, u), its entry (r, 0, 0). -/
theorem broadcastTo_a11_an1_apply {a n : ℕ} (v : (⟨3, ![a, 1, 1]⟩ : Shape).Idx → α)
    (h : (⟨3, ![a, 1, 1]⟩ : Shape).Broadcasts ⟨3, ![a, n, 1]⟩) (r : Fin a) (k : Fin n) (u : Fin 1) :
    broadcastTo ⟨3, ![a, n, 1]⟩ v h (ix3 r k u) = v (ix3 r (0 : Fin 1) (0 : Fin 1)) := by
  refine broadcastTo_apply v h (ix3 r k u) (ix3 r (0 : Fin 1) (0 : Fin 1)) fun ax => ?_
  match ax with
  | ⟨0, _⟩ =>
    show r.val = if a = 1 then 0 else r.val
    split
    · have := r.isLt; omega
    · rfl
  | ⟨1, _⟩ => rfl
  | ⟨2, _⟩ => rfl

/-- An [a, n, 1] array broadcast to [a, n, d] reads, at (r, k, c), its entry (r, k, 0). -/
theorem broadcastTo_an1_and_apply {a n d : ℕ} (v : (⟨3, ![a, n, 1]⟩ : Shape).Idx → α)
    (h : (⟨3, ![a, n, 1]⟩ : Shape).Broadcasts ⟨3, ![a, n, d]⟩) (r : Fin a) (k : Fin n) (c : Fin d) :
    broadcastTo ⟨3, ![a, n, d]⟩ v h (ix3 r k c) = v (ix3 r k (0 : Fin 1)) := by
  refine broadcastTo_apply v h (ix3 r k c) (ix3 r k (0 : Fin 1)) fun ax => ?_
  match ax with
  | ⟨0, _⟩ =>
    show r.val = if a = 1 then 0 else r.val
    split
    · have := r.isLt; omega
    · rfl
  | ⟨1, _⟩ =>
    show k.val = if n = 1 then 0 else k.val
    split
    · have := k.isLt; omega
    · rfl
  | ⟨2, _⟩ => rfl

/-- An [a, 1, 1] array broadcast to [a, 1, d] reads, at (r, u, c), its entry (r, 0, 0). -/
theorem broadcastTo_a11_a1d_apply {a d : ℕ} (v : (⟨3, ![a, 1, 1]⟩ : Shape).Idx → α)
    (h : (⟨3, ![a, 1, 1]⟩ : Shape).Broadcasts ⟨3, ![a, 1, d]⟩) (r : Fin a) (u : Fin 1) (c : Fin d) :
    broadcastTo ⟨3, ![a, 1, d]⟩ v h (ix3 r u c) = v (ix3 r (0 : Fin 1) (0 : Fin 1)) := by
  refine broadcastTo_apply v h (ix3 r u c) (ix3 r (0 : Fin 1) (0 : Fin 1)) fun ax => ?_
  match ax with
  | ⟨0, _⟩ =>
    show r.val = if a = 1 then 0 else r.val
    split
    · have := r.isLt; omega
    · rfl
  | ⟨1, _⟩ => rfl
  | ⟨2, _⟩ => rfl

/-- An [a, 1, d] array broadcast to [a, n, d] reads, at (r, k, c), its entry (r, 0, c). -/
theorem broadcastTo_a1d_and_apply {a n d : ℕ} (v : (⟨3, ![a, 1, d]⟩ : Shape).Idx → α)
    (h : (⟨3, ![a, 1, d]⟩ : Shape).Broadcasts ⟨3, ![a, n, d]⟩) (r : Fin a) (k : Fin n) (c : Fin d) :
    broadcastTo ⟨3, ![a, n, d]⟩ v h (ix3 r k c) = v (ix3 r (0 : Fin 1) c) := by
  refine broadcastTo_apply v h (ix3 r k c) (ix3 r (0 : Fin 1) c) fun ax => ?_
  match ax with
  | ⟨0, _⟩ =>
    show r.val = if a = 1 then 0 else r.val
    split
    · have := r.isLt; omega
    · rfl
  | ⟨1, _⟩ => rfl
  | ⟨2, _⟩ =>
    show c.val = if d = 1 then 0 else c.val
    split
    · have := c.isLt; omega
    · rfl

/-! ## The same steps as a host program spells them (broadcast_in_dim with a list of target axes) -/

/-- An [a, 1] column placed on axes (0, 2) or (0, 1) of [a, 1, 1] reads, at (r, u, v), the column's entry r. -/
theorem broadcastInDim_a1_a11_apply {a : ℕ} (dims : Fin 2 → Fin 3) (hd0 : dims 0 = 0)
    (x : (⟨2, ![a, 1]⟩ : Shape).Idx → α) (h : (⟨2, ![a, 1]⟩ : Shape).BroadcastsInDim ⟨3, ![a, 1, 1]⟩ dims)
    (r : Fin a) (u v : Fin 1) : broadcastInDim ⟨3, ![a, 1, 1]⟩ dims h x (ix3 r u v) = x (ix2 r (0 : Fin 1)) := by
  refine broadcastInDim_apply dims h x (ix3 r u v) (ix2 r (0 : Fin 1)) fun ax => ?_
  match ax with
  | ⟨0, _⟩ =>
    show r.val = if a = 1 then 0 else ((ix3 r u v : (⟨3, ![a, 1, 1]⟩ : Shape).Idx) (dims 0)).val
    rw [hd0]
    split
    · have := r.isLt; omega
    · rfl
  | ⟨1, _⟩ => rfl

/-- An [a, d] array placed on axes (0, 2) of [a, 1, d] reads, at (r, u, c), the array at (r, c). -/
theorem broadcastInDim_ad_a1d_apply {a d : ℕ} (dims : Fin 2 → Fin 3) (hd0 : dims 0 = 0) (hd1 : dims 1 = 2)
    (x : (⟨2, ![a, d]⟩ : Shape).Idx → α) (h : (⟨2, ![a, d]⟩ : Shape).BroadcastsInDim ⟨3, ![a, 1, d]⟩ dims)
    (r : Fin a) (u : Fin 1) (c : Fin d) : broadcastInDim ⟨3, ![a, 1, d]⟩ dims h x (ix3 r u c) = x (ix2 r c) := by
  refine broadcastInDim_apply dims h x (ix3 r u c) (ix2 r c) fun ax => ?_
  match ax with
  | ⟨0, _⟩ =>
    show r.val = if a = 1 then 0 else ((ix3 r u c : (⟨3, ![a, 1, d]⟩ : Shape).Idx) (dims 0)).val
    rw [hd0]
    split
    · have := r.isLt; omega
    · rfl
  | ⟨1, _⟩ =>
    show c.val = if d = 1 then 0 else ((ix3 r u c : (⟨3, ![a, 1, d]⟩ : Shape).Idx) (dims 1)).val
    rw [hd1]
    split
    · have := c.isLt; omega
    · rfl

/-- An [a, 1, 1] array broadcast in place to [a, n, 1] reads, at (r, k, u), its entry (r, 0, 0). -/
theorem broadcastInDim_a11_an1_apply {a n : ℕ} (dims : Fin 3 → Fin 3) (hd0 : dims 0 = 0)
    (v : (⟨3, ![a, 1, 1]⟩ : Shape).Idx → α) (h : (⟨3, ![a, 1, 1]⟩ : Shape).BroadcastsInDim ⟨3, ![a, n, 1]⟩ dims)
    (r : Fin a) (k : Fin n) (u : Fin 1) :
    broadcastInDim ⟨3, ![a, n, 1]⟩ dims h v (ix3 r k u) = v (ix3 r (0 : Fin 1) (0 : Fin 1)) := by
  refine broadcastInDim_apply dims h v (ix3 r k u) (ix3 r (0 : Fin 1) (0 : Fin 1)) fun ax => ?_
  match ax with
  | ⟨0, _⟩ =>
    show r.val = if a = 1 then 0 else ((ix3 r k u : (⟨3, ![a, n, 1]⟩ : Shape).Idx) (dims 0)).val
    rw [hd0]
    split
    · have := r.isLt; omega
    · rfl
  | ⟨1, _⟩ => rfl
  | ⟨2, _⟩ => rfl

/-- An [a, n, 1] array broadcast in place to [a, n, d] reads, at (r, k, c), its entry (r, k, 0). -/
theorem broadcastInDim_an1_and_apply {a n d : ℕ} (dims : Fin 3 → Fin 3) (hd0 : dims 0 = 0) (hd1 : dims 1 = 1)
    (v : (⟨3, ![a, n, 1]⟩ : Shape).Idx → α) (h : (⟨3, ![a, n, 1]⟩ : Shape).BroadcastsInDim ⟨3, ![a, n, d]⟩ dims)
    (r : Fin a) (k : Fin n) (c : Fin d) :
    broadcastInDim ⟨3, ![a, n, d]⟩ dims h v (ix3 r k c) = v (ix3 r k (0 : Fin 1)) := by
  refine broadcastInDim_apply dims h v (ix3 r k c) (ix3 r k (0 : Fin 1)) fun ax => ?_
  match ax with
  | ⟨0, _⟩ =>
    show r.val = if a = 1 then 0 else ((ix3 r k c : (⟨3, ![a, n, d]⟩ : Shape).Idx) (dims 0)).val
    rw [hd0]
    split
    · have := r.isLt; omega
    · rfl
  | ⟨1, _⟩ =>
    show k.val = if n = 1 then 0 else ((ix3 r k c : (⟨3, ![a, n, d]⟩ : Shape).Idx) (dims 1)).val
    rw [hd1]
    split
    · have := k.isLt; omega
    · rfl
  | ⟨2, _⟩ => rfl

/-- An [a, 1, 1] array broadcast in place to [a, 1, d] reads, at (r, u, c), its entry (r, 0, 0). -/
theorem broadcastInDim_a11_a1d_apply {a d : ℕ} (dims : Fin 3 → Fin 3) (hd0 : dims 0 = 0)
    (v : (⟨3, ![a, 1, 1]⟩ : Shape).Idx → α) (h : (⟨3, ![a, 1, 1]⟩ : Shape).BroadcastsInDim ⟨3, ![a, 1, d]⟩ dims)
    (r : Fin a) (u : Fin 1) (c : Fin d) :
    broadcastInDim ⟨3, ![a, 1, d]⟩ dims h v (ix3 r u c) = v (ix3 r (0 : Fin 1) (0 : Fin 1)) := by
  refine broadcastInDim_apply dims h v (ix3 r u c) (ix3 r (0 : Fin 1) (0 : Fin 1)) fun ax => ?_
  match ax with
  | ⟨0, _⟩ =>
    show r.val = if a = 1 then 0 else ((ix3 r u c : (⟨3, ![a, 1, d]⟩ : Shape).Idx) (dims 0)).val
    rw [hd0]
    split
    · have := r.isLt; omega
    · rfl
  | ⟨1, _⟩ => rfl
  | ⟨2, _⟩ => rfl

end Cert.LibRank3

end
-- ==== Proof.LibReduce3.lean ====
/-
  One-axis reductions of rank-3 arrays, read at an index (general lemmas; no program is imported).

  Over the extended reals a sum over the groups (axis 1) or over the lanes (axis 2) of an [a, n, d] array is, at each
  kept index, the finite sum of the entries above it; a maximum over the groups is the running maximum from the starting
  value. A vector unit states the reduction with a neutral accumulator, a host program with an initial value it adds (or
  takes the maximum with); both read as the same sum or running maximum over the reduced axis's coordinates. A host
  contraction of an [a, n, d] array with an [a, 1, d] array over the lanes, row by row, is the sum over the lanes of the
  products. Stated for any extents.
-/
import Idealize.ShloMosaic.Lib.ValueIdx
import Idealize.ShloMosaic.Lib.IdealHost
import Idealize.ShloMosaic.PureOps.Ideal.Laws
import Idealize.ShloMosaic.PureOps.Reduce
import Mathlib.Data.Finset.Fold

noncomputable section

namespace Cert.LibReduce3

open Idealize.ShloMosaic Idealize.ShloMosaic.ValueIdx

/-! ## The source index above a kept index -/

/-- Reducing the groups of [a, n, d]: above (r, c), at group k, is (r, k, c). -/
theorem lift_groups {a n d : ℕ} (h : (⟨3, ![a, n, d]⟩ : Shape).Reduces [1] ⟨2, ![a, d]⟩) (r : Fin a) (c : Fin d) (k : Fin n) :
    h.lift (ix2 r c) k = ix3 r k c := by
  funext ax; apply Fin.ext
  match ax with
  | ⟨0, _⟩ => rfl
  | ⟨1, _⟩ => rfl
  | ⟨2, _⟩ => rfl

/-- Reducing the lanes of [a, n, d]: above (r, k), at lane c, is (r, k, c). -/
theorem lift_lanes {a n d : ℕ} (h : (⟨3, ![a, n, d]⟩ : Shape).Reduces [2] ⟨2, ![a, n]⟩) (r : Fin a) (k : Fin n) (c : Fin d) :
    h.lift (ix2 r k) c = ix3 r k c := by
  funext ax; apply Fin.ext
  match ax with
  | ⟨0, _⟩ => rfl
  | ⟨1, _⟩ => rfl
  | ⟨2, _⟩ => rfl

/-! ## A vector unit's reductions -/

/-- The sum over the groups, at (r, c). -/
theorem multiReduction_add_groups {a n d : ℕ} (src : FVec Ideal ⟨3, ![a, n, d]⟩ .f32)
    (h : (⟨3, ![a, n, d]⟩ : Shape).Reduces [1] ⟨2, ![a, d]⟩) (hφ : FKind.Formats .f32)
    (hacc : (0x00000000#32 : BitVec 32) = 0x00000000#32) (r : Fin a) (c : Fin d) :
    multiReduction .add [1] ⟨2, ![a, d]⟩ src 0x00000000#32 h hφ hacc (ix2 r c) = ∑ k : Fin n, src (ix3 r k c) :=
  (Ideal.multiReduction_add_single src 0x00000000#32 h hφ hacc (ix2 r c)).trans
    (Finset.sum_congr rfl fun k _ => congrArg src (lift_groups h r c k))

/-- The sum over the lanes, at (r, k). -/
theorem multiReduction_add_lanes {a n d : ℕ} (src : FVec Ideal ⟨3, ![a, n, d]⟩ .f32)
    (h : (⟨3, ![a, n, d]⟩ : Shape).Reduces [2] ⟨2, ![a, n]⟩) (hφ : FKind.Formats .f32)
    (hacc : (0x00000000#32 : BitVec 32) = 0x00000000#32) (r : Fin a) (k : Fin n) :
    multiReduction .add [2] ⟨2, ![a, n]⟩ src 0x00000000#32 h hφ hacc (ix2 r k) = ∑ c : Fin d, src (ix3 r k c) :=
  (Ideal.multiReduction_add_single src 0x00000000#32 h hφ hacc (ix2 r k)).trans
    (Finset.sum_congr rfl fun c _ => congrArg src (lift_lanes h r k c))

/-- The maximum over the groups, at (r, c): the running maximum from the accumulator's value. -/
theorem multiReduction_max_groups {a n d : ℕ} (src : FVec Ideal ⟨3, ![a, n, d]⟩ .f32)
    (h : (⟨3, ![a, n, d]⟩ : Shape).Reduces [1] ⟨2, ![a, d]⟩) (hφ : FKind.Formats .f32)
    (hacc : (0xFF800000#32 : BitVec 32) = 0xFF800000#32) (r : Fin a) (c : Fin d) :
    multiReduction .maximumf [1] ⟨2, ![a, d]⟩ src 0xFF800000#32 h hφ hacc (ix2 r c)
      = (Finset.univ : Finset (Fin n)).fold max (Ideal.ofBits .f32 0xFF800000#32) (fun k => src (ix3 r k c)) :=
  (Ideal.multiReduction_maximumf_single src 0xFF800000#32 h hφ hacc (ix2 r c)).trans
    (congrArg (Finset.fold max (Ideal.ofBits .f32 0xFF800000#32) · (Finset.univ : Finset (Fin n)))
      (funext fun k => congrArg src (lift_groups h r c k)))

/-! ## A host program's reductions -/

/-- The host's sum over the groups from an initial scalar, at (r, c): the scalar plus the sum. -/
theorem hostReduceAdd_groups {a n d : ℕ} (x : FVec Ideal ⟨3, ![a, n, d]⟩ .f32) (init : (⟨0, ![]⟩ : Shape).Idx → Ideal .f32)
    (h' : (⟨3, ![a, n, d]⟩ : Shape).ReducesTo [1] ⟨2, ![a, d]⟩) (h : (⟨3, ![a, n, d]⟩ : Shape).Reduces [1] ⟨2, ![a, d]⟩)
    (hu : 0 < (⟨0, ![]⟩ : Shape).numel) (r : Fin a) (c : Fin d) :
    Host.reduceAdd x init h' hu (ix2 r c) = init (Shape.Idx.first hu) + ∑ k : Fin n, x (ix3 r k c) :=
  (Ideal.hostReduceAdd_single h' h x (init (Shape.Idx.first hu)) (ix2 r c)).trans
    (congrArg (init (Shape.Idx.first hu) + ·) (Finset.sum_congr rfl fun k _ => congrArg x (lift_groups h r c k)))

/-- The host's sum over the lanes from an initial scalar, at (r, k): the scalar plus the sum. -/
theorem hostReduceAdd_lanes {a n d : ℕ} (x : FVec Ideal ⟨3, ![a, n, d]⟩ .f32) (init : (⟨0, ![]⟩ : Shape).Idx → Ideal .f32)
    (h' : (⟨3, ![a, n, d]⟩ : Shape).ReducesTo [2] ⟨2, ![a, n]⟩) (h : (⟨3, ![a, n, d]⟩ : Shape).Reduces [2] ⟨2, ![a, n]⟩)
    (hu : 0 < (⟨0, ![]⟩ : Shape).numel) (r : Fin a) (k : Fin n) :
    Host.reduceAdd x init h' hu (ix2 r k) = init (Shape.Idx.first hu) + ∑ c : Fin d, x (ix3 r k c) :=
  (Ideal.hostReduceAdd_single h' h x (init (Shape.Idx.first hu)) (ix2 r k)).trans
    (congrArg (init (Shape.Idx.first hu) + ·) (Finset.sum_congr rfl fun c _ => congrArg x (lift_lanes h r k c)))

/-- The host's maximum over the groups from an initial scalar, at (r, c): the running maximum from the scalar. -/
theorem hostReduce_max_groups {a n d : ℕ} (x : FVec Ideal ⟨3, ![a, n, d]⟩ .f32) (init : (⟨0, ![]⟩ : Shape).Idx → Ideal .f32)
    (h' : (⟨3, ![a, n, d]⟩ : Shape).ReducesTo [1] ⟨2, ![a, d]⟩) (h : (⟨3, ![a, n, d]⟩ : Shape).Reduces [1] ⟨2, ![a, d]⟩)
    (hu : 0 < (⟨0, ![]⟩ : Shape).numel) (r : Fin a) (c : Fin d) :
    Host.reduce (FloatOps.maximumf (F := Ideal) (φ := .f32)) x init h' hu (ix2 r c)
      = (Finset.univ : Finset (Fin n)).fold max (init (Shape.Idx.first hu)) (fun k => x (ix3 r k c)) :=
  (Host.reduce_eq_fold_single (FloatOps.maximumf (F := Ideal) (φ := .f32)) x init h' h hu (ix2 r c)).trans
    (congrArg (Finset.fold max (init (Shape.Idx.first hu)) · (Finset.univ : Finset (Fin n)))
      (funext fun k => congrArg x (lift_groups h r c k)))

/-- The running maximum from a starting value is not below it, so taking the maximum with the starting value once more
    changes nothing. -/
theorem max_fold_max {ι : Type} (s : Finset ι) (b : EReal) (f : ι → EReal) : max b (s.fold max b f) = s.fold max b f :=
  max_eq_right ((Finset.le_fold_max b).mpr (Or.inl le_rfl))

end Cert.LibReduce3

end
-- ==== Proof.Spec.lean ====
/-
  Routing by agreement over one row, on the extended reals: the function both programs compute.

  A row x of the input is first sent to 32 predicted capsules of 16 lanes each: prediction (n, d) is the inner product of x
  with column 16 n + d of the weight array. Three rounds follow, from logits b that start at zero. In a round the logits'
  softmax over the 32 capsules — exponentials of the logits less their maximum, divided by their total — weighs the
  predictions into one 16-lane vector s; s is squashed, s ↦ (q / (1 + q)) / sqrt(q + ε) · s with q the sum of the squares of
  s; and each logit grows by the inner product of its capsule's prediction with the squashed vector. The result is the
  squashed vector of the third round. Sums over the extended reals are commutative and associative, so each sum is written
  as a finite sum with no order; division, exponential and square root are the extended-real ones of the ideal
  reading, and the float constants (minus infinity, zero, one, ε) stay the words the programs carry.
-/
import Idealize.ShloMosaic.PureOps.Ideal
import Idealize.ShloMosaic.Lib.ValueIdx
import Mathlib.Data.Finset.Fold

noncomputable section

namespace Cert.Routing

open Idealize.ShloMosaic Idealize.ShloMosaic.ValueIdx

/-- The exponential of a logit less the row's maximum (the maximum taken from minus infinity). -/
def expShift (b : Fin 32 → EReal) (n : Fin 32) : EReal :=
  Ideal.exp (b n - (Finset.univ : Finset (Fin 32)).fold max (Ideal.ofBits .f32 0xFF800000#32) b)

/-- The total of the 32 exponentials. -/
def total (e : Fin 32 → EReal) : EReal := ∑ k : Fin 32, e k

/-- The predictions weighed by the normalized exponentials, lane by lane. -/
def weighted (hat : Fin 32 → Fin 16 → EReal) (e : Fin 32 → EReal) (z : EReal) (d : Fin 16) : EReal :=
  ∑ n : Fin 32, Ideal.div (e n) z * hat n d

/-- The sum of the squares of a 16-lane vector. -/
def sqNorm (s : Fin 16 → EReal) : EReal := ∑ d : Fin 16, s d * s d

/-- The squashed vector: s scaled by (q / (1 + q)) / sqrt(q + ε). -/
def squash (s : Fin 16 → EReal) (q : EReal) (d : Fin 16) : EReal :=
  Ideal.div (Ideal.div q (Ideal.ofBits .f32 0x3F800000#32 + q)) (Ideal.sqrt (q + Ideal.ofBits .f32 0x33D6BF95#32)) * s d

/-- A logit grown by the agreement of its capsule's prediction with the squashed vector. -/
def update (hat : Fin 32 → Fin 16 → EReal) (b : Fin 32 → EReal) (o : Fin 16 → EReal) (n : Fin 32) : EReal :=
  b n + ∑ d : Fin 16, hat n d * o d

/-- One round's squashed vector, from the logits b. -/
def roundOut (hat : Fin 32 → Fin 16 → EReal) (b : Fin 32 → EReal) : Fin 16 → EReal :=
  squash (weighted hat (expShift b) (total (expShift b))) (sqNorm (weighted hat (expShift b) (total (expShift b))))

/-- One round's new logits. -/
def roundLogits (hat : Fin 32 → Fin 16 → EReal) (b : Fin 32 → EReal) : Fin 32 → EReal :=
  update hat b (roundOut hat b)

/-- Three rounds from zero logits: the squashed vector of the third. -/
def route (hat : Fin 32 → Fin 16 → EReal) : Fin 16 → EReal :=
  roundOut hat (roundLogits hat (roundLogits hat fun _ => Ideal.ofBits .f32 0x00000000#32))

/-- Row r's 32 × 16 predictions: the inner products of the row with the weight array's columns. -/
def predictions {A : ℕ} (x : (⟨2, ![A, 1024]⟩ : Shape).Idx → EReal) (w : (⟨2, ![1024, 512]⟩ : Shape).Idx → EReal) (r : Fin A) :
    Fin 32 → Fin 16 → EReal :=
  fun n d => ∑ j : Fin 1024, x (ix2 r j) * w (ix2 j (⟨n.val * 16 + d.val, by omega⟩ : Fin 512))

/-- The whole result: entry (r, d) is lane d of row r's routed vector. -/
def G {A : ℕ} (x : (⟨2, ![A, 1024]⟩ : Shape).Idx → EReal) (w : (⟨2, ![1024, 512]⟩ : Shape).Idx → EReal) :
    (⟨2, ![A, 16]⟩ : Shape).Idx → EReal :=
  fun i => route (predictions x w (i 0)) (i 1)

/-! ## One row of an array with kept unit axes -/

/-- Row r of an [A, 32, 1] array, as 32 numbers. -/
def rowN {A : ℕ} (v : (⟨3, ![A, 32, 1]⟩ : Shape).Idx → EReal) (r : Fin A) : Fin 32 → EReal := fun n => v (ix3 r n (0 : Fin 1))

/-- Row r of an [A, 1, 16] array, as 16 numbers. -/
def rowD {A : ℕ} (v : (⟨3, ![A, 1, 16]⟩ : Shape).Idx → EReal) (r : Fin A) : Fin 16 → EReal := fun d => v (ix3 r (0 : Fin 1) d)

/-- Row r of an [A, 32, 16] array, as a 32 × 16 table. -/
def rowND {A : ℕ} (v : (⟨3, ![A, 32, 16]⟩ : Shape).Idx → EReal) (r : Fin A) : Fin 32 → Fin 16 → EReal := fun n d => v (ix3 r n d)

/-- Row r of an [A, 1, 1] array: one number. -/
def rowU {A : ℕ} (v : (⟨3, ![A, 1, 1]⟩ : Shape).Idx → EReal) (r : Fin A) : EReal := v (ix3 r (0 : Fin 1) (0 : Fin 1))

theorem G_apply {A : ℕ} (x : (⟨2, ![A, 1024]⟩ : Shape).Idx → EReal) (w : (⟨2, ![1024, 512]⟩ : Shape).Idx → EReal)
    (r : Fin A) (d : Fin 16) : G x w (ix2 r d) = route (predictions x w r) d := rfl

end Cert.Routing

end
-- ==== Proof.KernelRound.lean ====
/-
  The kernel's body, round by round, read one row at a time.

  The body works on a block of 1024 rows at once: [1024, 32, 16] predictions, [1024, 32, 1] logits. Each of its steps
  treats the rows alike, so row r of every intermediate array is the per-row routing step (Spec) of row r of the arrays it
  was computed from. A round is cut into six pieces — the shifted exponentials, their total, the weighed sum of the
  predictions, the sum of its squares, the squashed vector, the new logits — each stated once as a function of whole
  arrays in the body's own operations, with one lemma reading it at a row. The body's stored value is three rounds of
  these pieces from zero logits; at (r, d) it is lane d of the routing of row r's predictions.
-/
import proofs.«120435_j69002944578095_1_alg».proof.Proof.Gen.KernelIdeal.Skeleton
import proofs.«120435_j69002944578095_1_alg».proof.Proof.LibRank3
import proofs.«120435_j69002944578095_1_alg».proof.Proof.LibReduce3
import proofs.«120435_j69002944578095_1_alg».proof.Proof.Spec
import Idealize.ShloMosaic.Lib.ValueIdx
import Idealize.ShloMosaic.PureOps.Ideal.Laws

noncomputable section

namespace Cert.KernelIdeal.Rounds

open Cert.KernelIdeal Cert.KernelIdeal.Gen Idealize.ShloMosaic Idealize.ShloMosaic.ValueIdx
open Cert.LibRank3 Cert.LibReduce3 Cert.Routing

theorem exp_apply {s : Shape} (x : FVec Ideal s .f32) (i : s.Idx) : exp x i = Ideal.exp (x i) := rfl
theorem sqrt_apply {s : Shape} (x : FVec Ideal s .f32) (i : s.Idx) : sqrt x i = Ideal.sqrt (x i) := rfl

/-! ## The six pieces of a round, over whole blocks -/

/-- The exponentials of the logits less each row's maximum over the 32 capsules. -/
def kE (b : FVec Ideal S1024x32x1 .f32) : FVec Ideal S1024x32x1 .f32 :=
  exp (subf b (broadcastTo S1024x32x1 (shapeCast S1024x1x1 (multiReduction .maximumf [1] S1024x1 b 0xFF800000#32 reduces_S1024x32x1_S1024x1 (.inl rfl) rfl) shapeCasts_S1024x1_S1024x1x1) broadcasts_S1024x1x1_S1024x32x1))

/-- Each row's total of its exponentials. -/
def kZ (e : FVec Ideal S1024x32x1 .f32) : FVec Ideal S1024x1x1 .f32 :=
  shapeCast S1024x1x1 (multiReduction .add [1] S1024x1 e 0x00000000#32 reduces_S1024x32x1_S1024x1 (.inl rfl) rfl) shapeCasts_S1024x1_S1024x1x1

/-- Each row's predictions weighed by its normalized exponentials and summed over the capsules. -/
def kS (hat : FVec Ideal S1024x32x16 .f32) (e : FVec Ideal S1024x32x1 .f32) (z : FVec Ideal S1024x1x1 .f32) : FVec Ideal S1024x1x16 .f32 :=
  shapeCast S1024x1x16 (multiReduction .add [1] S1024x16 (mulf (broadcastTo S1024x32x16 (divf e (broadcastTo S1024x32x1 z broadcasts_S1024x1x1_S1024x32x1)) broadcasts_S1024x32x1_S1024x32x16) hat) 0x00000000#32 reduces_S1024x32x16_S1024x16 (.inl rfl) rfl) shapeCasts_S1024x16_S1024x1x16

/-- Each row's sum of the squares of its weighed vector. -/
def kQ (s : FVec Ideal S1024x1x16 .f32) : FVec Ideal S1024x1x1 .f32 :=
  shapeCast S1024x1x1 (multiReduction .add [2] S1024x1 (mulf s s) 0x00000000#32 reduces_S1024x1x16_S1024x1 (.inl rfl) rfl) shapeCasts_S1024x1_S1024x1x1

/-- Each row's squashed vector. -/
def kO (s : FVec Ideal S1024x1x16 .f32) (q : FVec Ideal S1024x1x1 .f32) : FVec Ideal S1024x1x16 .f32 :=
  mulf (broadcastTo S1024x1x16 (divf (divf q (addf (broadcast S1024x1x1 (Scalar.ofBits .f32 0x3F800000#32 : Ideal .f32)) q)) (sqrt (addf q (broadcast S1024x1x1 (Scalar.ofBits .f32 0x33D6BF95#32 : Ideal .f32))))) broadcasts_S1024x1x1_S1024x1x16) s

/-- Each row's logits grown by the agreement of each capsule's prediction with the squashed vector. -/
def kB (hat : FVec Ideal S1024x32x16 .f32) (b : FVec Ideal S1024x32x1 .f32) (o : FVec Ideal S1024x1x16 .f32) : FVec Ideal S1024x32x1 .f32 :=
  addf b (shapeCast S1024x32x1 (multiReduction .add [2] S1024x32 (mulf hat (broadcastTo S1024x32x16 o broadcasts_S1024x1x16_S1024x32x16)) 0x00000000#32 reduces_S1024x32x16_S1024x32 (.inl rfl) rfl) shapeCasts_S1024x32_S1024x32x1)

/-! ## Each piece at a row -/

theorem kE_row (b : FVec Ideal S1024x32x1 .f32) (r : Fin 1024) : rowN (kE b) r = expShift (rowN b r) := by
  funext n
  simp only [rowN, kE, expShift, exp_apply, subf_apply, broadcastTo_a11_an1_apply, shapeCast_a1_a11_apply]
  exact congrArg (fun v => Ideal.exp (b (ix3 r n (0 : Fin 1)) - v)) (multiReduction_max_groups b _ _ _ r (0 : Fin 1))

theorem kZ_row (e : FVec Ideal S1024x32x1 .f32) (r : Fin 1024) : rowU (kZ e) r = total (rowN e r) := by
  simp only [rowU, kZ, total, rowN, shapeCast_a1_a11_apply]
  exact multiReduction_add_groups e _ _ _ r (0 : Fin 1)

theorem kS_row (hat : FVec Ideal S1024x32x16 .f32) (e : FVec Ideal S1024x32x1 .f32) (z : FVec Ideal S1024x1x1 .f32) (r : Fin 1024) :
    rowD (kS hat e z) r = weighted (rowND hat r) (rowN e r) (rowU z r) := by
  funext d
  simp only [rowD, kS, weighted, rowND, rowN, rowU, shapeCast_ad_a1d_apply]
  refine (multiReduction_add_groups _ _ _ _ r d).trans (Finset.sum_congr rfl fun n _ => ?_)
  simp only [mulf_apply, broadcastTo_an1_and_apply, divf_apply, broadcastTo_a11_an1_apply]

theorem kQ_row (s : FVec Ideal S1024x1x16 .f32) (r : Fin 1024) : rowU (kQ s) r = sqNorm (rowD s r) := by
  simp only [rowU, kQ, sqNorm, rowD, shapeCast_a1_a11_apply]
  exact (multiReduction_add_lanes _ _ _ _ r (0 : Fin 1)).trans (Finset.sum_congr rfl fun d _ => rfl)

theorem kO_row (s : FVec Ideal S1024x1x16 .f32) (q : FVec Ideal S1024x1x1 .f32) (r : Fin 1024) :
    rowD (kO s q) r = squash (rowD s r) (rowU q r) := by
  funext d
  simp only [rowD, kO, squash, rowU, mulf_apply, broadcastTo_a11_a1d_apply, divf_apply, addf_apply, sqrt_apply,
    broadcast_apply]
  rfl

theorem kB_row (hat : FVec Ideal S1024x32x16 .f32) (b : FVec Ideal S1024x32x1 .f32) (o : FVec Ideal S1024x1x16 .f32) (r : Fin 1024) :
    rowN (kB hat b o) r = update (rowND hat r) (rowN b r) (rowD o r) := by
  funext n
  simp only [rowN, kB, update, rowND, rowD, addf_apply, shapeCast_an_an1_apply]
  refine congrArg (b (ix3 r n (0 : Fin 1)) + ·) ((multiReduction_add_lanes _ _ _ _ r n).trans (Finset.sum_congr rfl fun d _ => ?_))
  simp only [mulf_apply, broadcastTo_a1d_and_apply]

/-! ## A round, three rounds, and the body's stored value -/

/-- One round's squashed vectors, from the logits. -/
def kRoundOut (hat : FVec Ideal S1024x32x16 .f32) (b : FVec Ideal S1024x32x1 .f32) : FVec Ideal S1024x1x16 .f32 :=
  kO (kS hat (kE b) (kZ (kE b))) (kQ (kS hat (kE b) (kZ (kE b))))

/-- One round's new logits. -/
def kRoundLogits (hat : FVec Ideal S1024x32x16 .f32) (b : FVec Ideal S1024x32x1 .f32) : FVec Ideal S1024x32x1 .f32 :=
  kB hat b (kRoundOut hat b)

theorem kRoundOut_row (hat : FVec Ideal S1024x32x16 .f32) (b : FVec Ideal S1024x32x1 .f32) (r : Fin 1024) :
    rowD (kRoundOut hat b) r = roundOut (rowND hat r) (rowN b r) := by
  unfold kRoundOut roundOut
  rw [kO_row, kQ_row, kS_row, kZ_row, kE_row]

theorem kRoundLogits_row (hat : FVec Ideal S1024x32x16 .f32) (b : FVec Ideal S1024x32x1 .f32) (r : Fin 1024) :
    rowN (kRoundLogits hat b) r = roundLogits (rowND hat r) (rowN b r) := by
  unfold kRoundLogits roundLogits
  rw [kB_row, kRoundOut_row]

/-- The logits before the first round: zero everywhere. -/
def kB0 : FVec Ideal S1024x32x1 .f32 := broadcast S1024x32x1 (Scalar.ofBits .f32 0x00000000#32 : Ideal .f32)

theorem kB0_row (r : Fin 1024) : rowN kB0 r = fun _ => Ideal.ofBits .f32 0x00000000#32 := rfl

/-- The body's stored value is the third round's squashed vectors, with the unit axis dropped. -/
theorem pay_eq (xb : Vec Ideal S1024x1024 .f32) (w : Vec Ideal S1024x512 .f32) :
    k0_pay5 (k0_pay1 xb w) (k0_pay2 xb w) (k0_pay3 xb w) (k0_pay4 xb w)
      = shapeCast S1024x16 (kRoundOut (k0_pay1 xb w) (kRoundLogits (k0_pay1 xb w) (kRoundLogits (k0_pay1 xb w) kB0)))
          shapeCasts_S1024x1x16_S1024x16 := rfl

/-- Row r of the block's predictions: the row's inner products with the weight array's columns (the product into a zero
    accumulator is the plain sum, and rounding the operands to bf16 changes nothing on the extended reals). -/
theorem hat_row (xb : Vec Ideal S1024x1024 .f32) (w : Vec Ideal S1024x512 .f32) (r : Fin 1024) :
    rowND (k0_pay1 xb w) r = predictions xb w r := by
  funext n d
  show shapeCast S1024x32x16 (matmul (F := Ideal) dot_S1024x1024_S1024x512_S1024x512_1_0_0_1_n_n none
      (truncf (F := Ideal) .bf16 (xb : FVec Ideal S1024x1024 .f32) bitsLt_bf16_f32)
      (truncf (F := Ideal) .bf16 (w : FVec Ideal S1024x512 .f32) bitsLt_bf16_f32) (constant (F := Ideal) S1024x512 .f32 0x00000000#32))
      shapeCasts_S1024x512_S1024x32x16 (ix3 r n d) = _
  rw [shapeCast_a512_a32x16_apply]
  refine (Ideal.matmul_constant_zero_apply _ none _ _ _).trans ?_
  rw [← Equiv.sum_comp (contrEquiv1 dot_S1024x1024_S1024x512_S1024x512_1_0_0_1_n_n 1024 rfl rfl).symm]
  refine Finset.sum_congr rfl fun i _ => ?_
  have hl : dot_S1024x1024_S1024x512_S1024x512_1_0_0_1_n_n.lhsIdx (ix2 r (⟨n.val * 16 + d.val, by omega⟩ : Fin 512))
      ((contrEquiv1 dot_S1024x1024_S1024x512_S1024x512_1_0_0_1_n_n 1024 rfl rfl).symm i) = ix2 r i := by
    funext ax; apply Fin.ext
    match ax with
    | ⟨0, _⟩ => rfl
    | ⟨1, _⟩ =>
      exact (dot_S1024x1024_S1024x512_S1024x512_1_0_0_1_n_n.lhsIdx_val_of_single rfl _ _).trans
        (contrEquiv1_symm_val dot_S1024x1024_S1024x512_S1024x512_1_0_0_1_n_n 1024 rfl rfl i)
  have hr : dot_S1024x1024_S1024x512_S1024x512_1_0_0_1_n_n.rhsIdx (ix2 r (⟨n.val * 16 + d.val, by omega⟩ : Fin 512))
      ((contrEquiv1 dot_S1024x1024_S1024x512_S1024x512_1_0_0_1_n_n 1024 rfl rfl).symm i)
        = ix2 i (⟨n.val * 16 + d.val, by omega⟩ : Fin 512) := by
    funext ax; apply Fin.ext
    match ax with
    | ⟨0, _⟩ =>
      exact (dot_S1024x1024_S1024x512_S1024x512_1_0_0_1_n_n.rhsIdx_val_of_single rfl _ _).trans
        (contrEquiv1_symm_val dot_S1024x1024_S1024x512_S1024x512_1_0_0_1_n_n 1024 rfl rfl i)
    | ⟨1, _⟩ => rfl
  show xb _ * w _ = _
  rw [hl, hr]

/-- So the stored value at (r, d) is lane d of the routing of row r's predictions. -/
theorem payload_apply (xb : Vec Ideal S1024x1024 .f32) (w : Vec Ideal S1024x512 .f32) (r : Fin 1024) (d : Fin 16) :
    k0_pay5 (k0_pay1 xb w) (k0_pay2 xb w) (k0_pay3 xb w) (k0_pay4 xb w) (ix2 r d) = route (predictions xb w r) d := by
  rw [pay_eq, shapeCast_a1d_ad_apply]
  show rowD (kRoundOut (k0_pay1 xb w) (kRoundLogits (k0_pay1 xb w) (kRoundLogits (k0_pay1 xb w) kB0))) r d = _
  rw [kRoundOut_row, kRoundLogits_row, kRoundLogits_row, kB0_row, hat_row]
  rfl

end Cert.KernelIdeal.Rounds

end
-- ==== Proof.KernelWhole.lean ====
/-
  From blocks to the array: what the kernel's run leaves in its result.

  The launch walks 16 grid points. Point t stages rows 1024 t … 1024 t + 1023 of the input and the whole weight array, runs
  the body on them, and writes the body's [1024, 16] result back as rows 1024 t … 1024 t + 1023 of the output. Row r of the
  body's result is the routing of row r of the staged input block (KernelRound), that is of row 1024 t + r of the input
  array; so each point writes the matching rows of the whole-array function G (Spec). The 16 blocks tile the 16384 rows,
  so the output array ends as G of the two argument arrays, and the arguments are left as they were.
-/
import proofs.«120435_j69002944578095_1_alg».proof.Proof.Gen.KernelIdeal.Frame
import proofs.«120435_j69002944578095_1_alg».proof.Proof.KernelRound
import Idealize.ShloMosaic.Lib.Pipeline.Value

noncomputable section

namespace Cert.KernelIdeal.Whole

open Cert.KernelIdeal Cert.KernelIdeal.Gen Cert.KernelIdeal.Rounds Idealize.ShloMosaic Idealize.ShloMosaic.TcCoe Idealize.SL.Sem
open Idealize.ShloMosaic.ValueIdx Cert.Routing
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 grid points: the input's and the output's blocks move down the rows with the
    point, the weight array's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input array as the region finds it. -/
abbrev argX (c : Dev nD) : (⟨2, ![16384, 1024]⟩ : Shape).Idx → EReal := V m c main_arg0

/-- The weight array as the region finds it. -/
abbrev argW (c : Dev nD) : (⟨2, ![1024, 512]⟩ : Shape).Idx → EReal := V m c main_arg1

/-- Point t's input block at (r, j) is the input array at (1024 t + r, j). -/
theorem iblk0_apply (c : Dev nD) (t : Fin cfg0.N) (r j : Fin 1024) (R : Fin 16384) (hR : R.val = 1024 * t.val + r.val) :
    (iblk m c 0 t : Vec Ideal S1024x1024 .f32) (ix2 r j) = argX m c (ix2 R j) := by
  obtain ⟨e0, e1, -, -, -, -⟩ := idx_facts t
  show V m c main_arg0 (((cfg0.win 0).blk t).view.emb (ix2 r j)) = V m c main_arg0 (ix2 R j)
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 1024 + 1 * j.val = j.val; omega

/-- Point t's weight block is the whole weight array. -/
theorem iblk1_apply (c : Dev nD) (t : Fin cfg0.N) (j : Fin 1024) (k : Fin 512) :
    (iblk m c 1 t : Vec Ideal S1024x512 .f32) (ix2 j k) = argW m c (ix2 j k) := by
  obtain ⟨-, -, e2, e3, -, -⟩ := idx_facts t
  show V m c main_arg1 (((cfg0.win 1).blk t).view.emb (ix2 j k)) = V m c main_arg1 (ix2 j k)
  refine congrArg (V m c main_arg1) (funext fun a => Fin.ext ?_)
  match a with
  | ⟨0, _⟩ => show win0_1.index t (0 : Fin 2) * 1024 + 1 * j.val = j.val; omega
  | ⟨1, _⟩ => show win0_1.index t (1 : Fin 2) * 512 + 1 * k.val = k.val; omega

/-- What point t writes back is block t of G of the argument arrays. -/
theorem flushed_eq (c : Dev nD) (t : Fin cfg0.N) :
    (dats m 0 c).flushed 2 t = ((cfg0.win 2).blk t).view.read (Elt Ideal) (G (argX m c) (argW m c)) := by
  show (cfg0.win 2).cut (grid0.coords t) ((dats m 0 c).after 2 t) = _
  rw [after0_2]
  unfold out0_2
  rw [View.canon_unit_zero hz]
  simp only [View.ld_unit_zero (S := S1024x1024) hz, View.ld_unit_zero (S := S1024x512) hz]
  obtain ⟨-, -, -, -, e4, e5⟩ := idx_facts t
  funext y
  obtain ⟨r, d, rfl⟩ : ∃ (r : Fin 1024) (d : Fin 16), y = ix2 r d := ⟨y 0, y 1, eq_ix2 y⟩
  have hlt : 1024 * t.val + r.val < 16384 := by
    have h1 : t.val < cfg0.N := t.isLt
    have hN : cfg0.N = 16 := N_0
    have h2 : r.val < 1024 := r.isLt
    omega
  have he : ((cfg0.win 2).blk t).view.emb (ix2 r d) = ix2 (⟨1024 * t.val + r.val, hlt⟩ : Fin 16384) d := by
    funext a; apply Fin.ext
    match a with
    | ⟨0, _⟩ => show win0_2.index t (0 : Fin 2) * 1024 + 1 * r.val = 1024 * t.val + r.val; omega
    | ⟨1, _⟩ => show win0_2.index t (1 : Fin 2) * 16 + 1 * d.val = d.val; omega
  show k0_pay5 (k0_pay1 (iblk m c 0 t) (iblk m c 1 t)) (k0_pay2 (iblk m c 0 t) (iblk m c 1 t)) (k0_pay3 (iblk m c 0 t) (iblk m c 1 t))
      (k0_pay4 (iblk m c 0 t) (iblk m c 1 t)) (ix2 r d) = G (argX m c) (argW m c) (((cfg0.win 2).blk t).view.emb (ix2 r d))
  rw [he, G_apply]
  refine (payload_apply (iblk m c 0 t) (iblk m c 1 t) r d).trans ?_
  refine congrArg (fun h => route h d) (funext fun n => funext fun dd => ?_)
  unfold predictions
  refine Finset.sum_congr rfl fun j _ => ?_
  rw [iblk0_apply m c t r j ⟨1024 * t.val + r.val, hlt⟩ rfl, iblk1_apply m c t j _]

/-- An index of the output array is in point t's block iff each coordinate is in the block's range on its axis. -/
theorem mem_blk (t : Fin cfg0.N) (i : S16384x16.Idx) :
    i ∈ ((cfg0.win 2).blk t).view.set ↔ ∀ a : Fin 2, win0_2.index t a * S1024x16.size a ≤ (i a).val ∧ (i a).val < win0_2.index t a * S1024x16.size a + S1024x16.size a := by
  show i ∈ ((View.whole main_v0).slice (win0_2.rect t)).set ↔ _
  rw [View.set_slice_whole, Rect.mem_set_unit]
  exact Iff.rfl

/-- Every index of the output array is in the block of the point that holds its row: row R is in block R / 1024. -/
theorem cover (i : S16384x16.Idx) : ∃ t : Fin cfg0.N, (cfg0.win 2).flush t = true ∧ i ∈ ((cfg0.win 2).blk t).view.set := by
  have hi0 : (i 0).val < 16384 := (i 0).isLt
  have hi1 : (i 1).val < 16 := (i 1).isLt
  have hN : cfg0.N = 16 := N_0
  refine ⟨⟨(i 0).val / 1024, by rw [hN]; omega⟩, flush0_2 _, ?_⟩
  obtain ⟨-, -, -, -, e4, e5⟩ := idx_facts ⟨(i 0).val / 1024, by rw [hN]; omega⟩
  rw [mem_blk]
  intro a
  match a with
  | ⟨0, _⟩ =>
    show win0_2.index ⟨(i 0).val / 1024, _⟩ (0 : Fin 2) * 1024 ≤ (i 0).val ∧ (i 0).val < win0_2.index ⟨(i 0).val / 1024, _⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, _⟩ (1 : Fin 2) * 16 ≤ (i 1).val ∧ (i 1).val < win0_2.index ⟨(i 0).val / 1024, _⟩ (1 : Fin 2) * 16 + 16
    rw [e5]; omega

/-- So the output array ends as G of the argument arrays. -/
theorem final (c : Dev nD) : (dats m 0 c).arrAt 2 cfg0.N = G (argX m c) (argW m c) :=
  (dats m 0 c).arrAt_eq_of_cover 2 (G (argX m c) (argW m c)) (fun t _ => flushed_eq m c t) cover

/-- The kernel's run: every weakly fair execution terminates with the result array at G of the arguments and the
    arguments unchanged. -/
theorem run : θ_run defs (onTc (τ := τ) (main (F := Ideal))) ⟨m, fun _ => 0, ρ⟩ fun r => ∀ c : Dev nD,
      r.2.mem ((c : Thread nD τ).loc main_v0) = G (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RefRound.lean ====
/-
  The reference's program, round by round, read one row at a time.

  The reference works on all 16384 rows at once. Its steps are the host's spellings of the routing step: a reduction from
  an initial scalar (zero for the sums, which adds nothing; minus infinity for the maximum, with one more maximum against
  minus infinity, which changes nothing), broadcast_in_dim where a vector unit casts and broadcasts, and a row-by-row
  contraction over the 16 lanes for the agreement. Each round is cut into the same six pieces as the per-row routing
  step (Spec), each stated once as a function of whole arrays in the host's operations, with one lemma reading it at a row.
-/
import proofs.«120435_j69002944578095_1_alg».proof.Proof.Gen.ReferenceIdeal.Run
import proofs.«120435_j69002944578095_1_alg».proof.Proof.LibRank3
import proofs.«120435_j69002944578095_1_alg».proof.Proof.LibReduce3
import proofs.«120435_j69002944578095_1_alg».proof.Proof.Spec
import Idealize.ShloMosaic.Lib.ValueIdx
import Idealize.ShloMosaic.Lib.IdealHost
import Idealize.ShloMosaic.PureOps.Ideal.Laws

noncomputable section

namespace Cert.ReferenceIdeal.Rounds

open Cert.ReferenceIdeal Cert.ReferenceIdeal.Gen Idealize.ShloMosaic Idealize.ShloMosaic.ValueIdx
open Cert.LibRank3 Cert.LibReduce3 Cert.Routing

theorem hostExp_apply {s : Shape} (x : FVec Ideal s .f32) (i : s.Idx) : Host.exp x i = Ideal.exp (x i) := rfl
theorem hostSqrt_apply {s : Shape} (x : FVec Ideal s .f32) (i : s.Idx) : Host.sqrt x i = Ideal.sqrt (x i) := rfl

/-- The shapes' reduction facts in the form that names the source index above a kept one. -/
theorem red_groups1 : (⟨3, ![16384, 32, 1]⟩ : Shape).Reduces [1] ⟨2, ![16384, 1]⟩ := by decide
theorem red_groups16 : (⟨3, ![16384, 32, 16]⟩ : Shape).Reduces [1] ⟨2, ![16384, 16]⟩ := by decide
theorem red_lanes1 : (⟨3, ![16384, 1, 16]⟩ : Shape).Reduces [2] ⟨2, ![16384, 1]⟩ := by decide

/-! ## The six pieces of a round, over whole arrays -/

/-- The exponentials of the logits less each row's maximum over the 32 capsules. -/
def rE (b : FVec Ideal S16384x32x1 .f32) : FVec Ideal S16384x32x1 .f32 :=
  Host.exp (subf b (broadcastInDim S16384x32x1 ![0, 1, 2] bcast_S16384x1x1_S16384x32x1_0_1_2 (broadcastInDim S16384x1x1 ![0, 2] bcast_S16384x1_S16384x1x1_0_2 (maximumf (broadcastInDim S16384x1 ![] bcast_S_S16384x1 (constant (F := Ideal) S_ .f32 0xFF800000#32)) (Host.reduce FloatOps.maximumf b (constant (F := Ideal) S_ .f32 0xFF800000#32) reducesTo_S16384x32x1_S16384x1_d1 h_S_)))))

/-- Each row's total of its exponentials. -/
def rZ (e : FVec Ideal S16384x32x1 .f32) : FVec Ideal S16384x1x1 .f32 :=
  broadcastInDim S16384x1x1 ![0, 2] bcast_S16384x1_S16384x1x1_0_2 (Host.reduceAdd e (constant (F := Ideal) S_ .f32 0x00000000#32) reducesTo_S16384x32x1_S16384x1_d1 h_S_)

/-- Each row's predictions weighed by its normalized exponentials and summed over the capsules. -/
def rS (hat : FVec Ideal S16384x32x16 .f32) (e : FVec Ideal S16384x32x1 .f32) (z : FVec Ideal S16384x1x1 .f32) : FVec Ideal S16384x1x16 .f32 :=
  broadcastInDim S16384x1x16 ![0, 2] bcast_S16384x16_S16384x1x16_0_2 (Host.reduceAdd (mulf (broadcastInDim S16384x32x16 ![0, 1, 2] bcast_S16384x32x1_S16384x32x16_0_1_2 (Host.divf e (broadcastInDim S16384x32x1 ![0, 1, 2] bcast_S16384x1x1_S16384x32x1_0_1_2 z))) hat) (constant (F := Ideal) S_ .f32 0x00000000#32) reducesTo_S16384x32x16_S16384x16_d1 h_S_)

/-- Each row's sum of the squares of its weighed vector. -/
def rQ (s : FVec Ideal S16384x1x16 .f32) : FVec Ideal S16384x1x1 .f32 :=
  broadcastInDim S16384x1x1 ![0, 1] bcast_S16384x1_S16384x1x1_0_1 (Host.reduceAdd (mulf s s) (constant (F := Ideal) S_ .f32 0x00000000#32) reducesTo_S16384x1x16_S16384x1_d2 h_S_)

/-- Each row's squashed vector. -/
def rO (s : FVec Ideal S16384x1x16 .f32) (q : FVec Ideal S16384x1x1 .f32) : FVec Ideal S16384x1x16 .f32 :=
  mulf (broadcastInDim S16384x1x16 ![0, 1, 2] bcast_S16384x1x1_S16384x1x16_0_1_2 (Host.divf (Host.divf q (addf (broadcastInDim S16384x1x1 ![] bcast_S_S16384x1x1 (constant (F := Ideal) S_ .f32 0x3F800000#32)) q)) (Host.sqrt (addf q (broadcastInDim S16384x1x1 ![] bcast_S_S16384x1x1 (constant (F := Ideal) S_ .f32 0x33D6BF95#32)))))) s

/-- Each row's logits grown by the agreement of each capsule's prediction with the squashed vector. -/
def rB (hat : FVec Ideal S16384x32x16 .f32) (b : FVec Ideal S16384x32x1 .f32) (o : FVec Ideal S16384x1x16 .f32) : FVec Ideal S16384x32x1 .f32 :=
  addf b (Host.dotGeneral dot_S16384x32x16_S16384x1x16_S16384x32x1_2_2_1_1_0_0 none hat o)

/-! ## Each piece at a row -/

theorem rE_row (b : FVec Ideal S16384x32x1 .f32) (r : Fin 16384) : rowN (rE b) r = expShift (rowN b r) := by
  funext n
  simp only [rowN, rE, expShift, hostExp_apply, subf_apply, broadcastInDim_a11_an1_apply (![0, 1, 2] : Fin 3 → Fin 3) rfl,
    broadcastInDim_a1_a11_apply (![0, 2] : Fin 2 → Fin 3) rfl, maximumf_apply, broadcastInDim_scalar_apply, constant_apply]
  refine congrArg (fun v => Ideal.exp (b (ix3 r n (0 : Fin 1)) - v)) ?_
  refine (congrArg (max (Ideal.ofBits .f32 0xFF800000#32)) (hostReduce_max_groups b _ _ red_groups1 _ r (0 : Fin 1))).trans ?_
  exact max_fold_max _ _ _

theorem rZ_row (e : FVec Ideal S16384x32x1 .f32) (r : Fin 16384) : rowU (rZ e) r = total (rowN e r) := by
  simp only [rowU, rZ, total, rowN, broadcastInDim_a1_a11_apply (![0, 2] : Fin 2 → Fin 3) rfl]
  refine (hostReduceAdd_groups e _ _ red_groups1 _ r (0 : Fin 1)).trans ?_
  show Ideal.ofBits .f32 0x00000000#32 + _ = _
  rw [Ideal.ofBits_zero_f32, zero_add]

theorem rS_row (hat : FVec Ideal S16384x32x16 .f32) (e : FVec Ideal S16384x32x1 .f32) (z : FVec Ideal S16384x1x1 .f32) (r : Fin 16384) :
    rowD (rS hat e z) r = weighted (rowND hat r) (rowN e r) (rowU z r) := by
  funext d
  simp only [rowD, rS, weighted, rowND, rowN, rowU, broadcastInDim_ad_a1d_apply (![0, 2] : Fin 2 → Fin 3) rfl rfl]
  refine (hostReduceAdd_groups _ _ _ red_groups16 _ r d).trans ?_
  show Ideal.ofBits .f32 0x00000000#32 + _ = _
  rw [Ideal.ofBits_zero_f32, zero_add]
  refine Finset.sum_congr rfl fun n _ => ?_
  simp only [mulf_apply, broadcastInDim_an1_and_apply (![0, 1, 2] : Fin 3 → Fin 3) rfl rfl, hostDivf_apply, broadcastInDim_a11_an1_apply (![0, 1, 2] : Fin 3 → Fin 3) rfl]

theorem rQ_row (s : FVec Ideal S16384x1x16 .f32) (r : Fin 16384) : rowU (rQ s) r = sqNorm (rowD s r) := by
  simp only [rowU, rQ, sqNorm, rowD, broadcastInDim_a1_a11_apply (![0, 1] : Fin 2 → Fin 3) rfl]
  refine (hostReduceAdd_lanes _ _ _ red_lanes1 _ r (0 : Fin 1)).trans ?_
  show Ideal.ofBits .f32 0x00000000#32 + _ = _
  rw [Ideal.ofBits_zero_f32, zero_add]
  exact Finset.sum_congr rfl fun d _ => rfl

theorem rO_row (s : FVec Ideal S16384x1x16 .f32) (q : FVec Ideal S16384x1x1 .f32) (r : Fin 16384) :
    rowD (rO s q) r = squash (rowD s r) (rowU q r) := by
  funext d
  simp only [rowD, rO, squash, rowU, mulf_apply, broadcastInDim_a11_a1d_apply (![0, 1, 2] : Fin 3 → Fin 3) rfl, hostDivf_apply, addf_apply,
    hostSqrt_apply, broadcastInDim_scalar_apply, constant_apply]
  rfl

theorem rB_row (hat : FVec Ideal S16384x32x16 .f32) (b : FVec Ideal S16384x32x1 .f32) (o : FVec Ideal S16384x1x16 .f32) (r : Fin 16384) :
    rowN (rB hat b o) r = update (rowND hat r) (rowN b r) (rowD o r) := by
  funext n
  simp only [rowN, rB, update, rowND, rowD, addf_apply]
  refine congrArg (b (ix3 r n (0 : Fin 1)) + ·) ?_
  refine (Ideal.dotGeneral_apply dot_S16384x32x16_S16384x1x16_S16384x32x1_2_2_1_1_0_0 none _ hat o (ix3 r n (0 : Fin 1))).trans ?_
  rw [← Equiv.sum_comp (contrEquiv1 dot_S16384x32x16_S16384x1x16_S16384x32x1_2_2_1_1_0_0 16 rfl rfl).symm]
  refine Finset.sum_congr rfl fun c _ => ?_
  have hl : dot_S16384x32x16_S16384x1x16_S16384x32x1_2_2_1_1_0_0.lhsIdx (ix3 r n (0 : Fin 1))
      ((contrEquiv1 dot_S16384x32x16_S16384x1x16_S16384x32x1_2_2_1_1_0_0 16 rfl rfl).symm c) = ix3 r n c := by
    funext ax; apply Fin.ext
    match ax with
    | ⟨0, _⟩ => rfl
    | ⟨1, _⟩ => rfl
    | ⟨2, _⟩ =>
      exact (dot_S16384x32x16_S16384x1x16_S16384x32x1_2_2_1_1_0_0.lhsIdx_val_of_single rfl _ _).trans
        (contrEquiv1_symm_val dot_S16384x32x16_S16384x1x16_S16384x32x1_2_2_1_1_0_0 16 rfl rfl c)
  have hr : dot_S16384x32x16_S16384x1x16_S16384x32x1_2_2_1_1_0_0.rhsIdx (ix3 r n (0 : Fin 1))
      ((contrEquiv1 dot_S16384x32x16_S16384x1x16_S16384x32x1_2_2_1_1_0_0 16 rfl rfl).symm c) = ix3 r (0 : Fin 1) c := by
    funext ax; apply Fin.ext
    match ax with
    | ⟨0, _⟩ => rfl
    | ⟨1, _⟩ => rfl
    | ⟨2, _⟩ =>
      exact (dot_S16384x32x16_S16384x1x16_S16384x32x1_2_2_1_1_0_0.rhsIdx_val_of_single rfl _ _).trans
        (contrEquiv1_symm_val dot_S16384x32x16_S16384x1x16_S16384x32x1_2_2_1_1_0_0 16 rfl rfl c)
  rw [hl, hr]

/-! ## A round, three rounds, and the reference's result -/

/-- One round's squashed vectors, from the logits. -/
def rRoundOut (hat : FVec Ideal S16384x32x16 .f32) (b : FVec Ideal S16384x32x1 .f32) : FVec Ideal S16384x1x16 .f32 :=
  rO (rS hat (rE b) (rZ (rE b))) (rQ (rS hat (rE b) (rZ (rE b))))

/-- One round's new logits. -/
def rRoundLogits (hat : FVec Ideal S16384x32x16 .f32) (b : FVec Ideal S16384x32x1 .f32) : FVec Ideal S16384x32x1 .f32 :=
  rB hat b (rRoundOut hat b)

theorem rRoundOut_row (hat : FVec Ideal S16384x32x16 .f32) (b : FVec Ideal S16384x32x1 .f32) (r : Fin 16384) :
    rowD (rRoundOut hat b) r = roundOut (rowND hat r) (rowN b r) := by
  unfold rRoundOut roundOut
  rw [rO_row, rQ_row, rS_row, rZ_row, rE_row]

theorem rRoundLogits_row (hat : FVec Ideal S16384x32x16 .f32) (b : FVec Ideal S16384x32x1 .f32) (r : Fin 16384) :
    rowN (rRoundLogits hat b) r = roundLogits (rowND hat r) (rowN b r) := by
  unfold rRoundLogits roundLogits
  rw [rB_row, rRoundOut_row]

open Cert.ReferenceIdeal.Value Idealize.ShloMosaic.StableHlo

variable (V0 : Valuation τ sig (Elt Ideal))

/-- The input array and the weight array as the reference is launched with them. -/
abbrev refX : (⟨2, ![16384, 1024]⟩ : Shape).Idx → EReal := V0 (Proc.devRef .tc main_arg0)
abbrev refW : (⟨2, ![1024, 512]⟩ : Shape).Idx → EReal := V0 (Proc.devRef .tc main_arg1)

/-- The named stages of the reference's run are three rounds from zero logits. -/
theorem v31_eq : (res_main_v31 V0 : FVec Ideal S16384x32x1 .f32) = rRoundLogits (res_main_v1 V0) (res_main_v2 V0) := rfl
theorem v60_eq : (res_main_v60 V0 : FVec Ideal S16384x32x1 .f32) = rRoundLogits (res_main_v1 V0) (res_main_v31 V0) := rfl
theorem v87_eq : (res_main_v87 V0 : FVec Ideal S16384x1x16 .f32) = rRoundOut (res_main_v1 V0) (res_main_v60 V0) := rfl

theorem rB0_row (r : Fin 16384) : rowN (res_main_v2 V0) r = fun _ => Ideal.ofBits .f32 0x00000000#32 := rfl

/-- Row r of the reference's predictions: the row's inner products with the weight array's columns. -/
theorem rhat_row (r : Fin 16384) : rowND (res_main_v1 V0) r = predictions (refX V0) (refW V0) r := by
  funext n d
  show shapeCast S16384x32x16 (Host.dotGeneral (F := Ideal) dot_S16384x1024_S1024x512_S16384x512_1_0_0_1_n_n none
      (refX V0 : FVec Ideal S16384x1024 .f32) (refW V0 : FVec Ideal S1024x512 .f32)) shapeCasts_S16384x512_S16384x32x16 (ix3 r n d) = _
  rw [shapeCast_a512_a32x16_apply]
  refine (Ideal.dotGeneral_apply dot_S16384x1024_S1024x512_S16384x512_1_0_0_1_n_n none _ _ _ _).trans ?_
  rw [← Equiv.sum_comp (contrEquiv1 dot_S16384x1024_S1024x512_S16384x512_1_0_0_1_n_n 1024 rfl rfl).symm]
  refine Finset.sum_congr rfl fun i _ => ?_
  have hl : dot_S16384x1024_S1024x512_S16384x512_1_0_0_1_n_n.lhsIdx (ix2 r (⟨n.val * 16 + d.val, by omega⟩ : Fin 512))
      ((contrEquiv1 dot_S16384x1024_S1024x512_S16384x512_1_0_0_1_n_n 1024 rfl rfl).symm i) = ix2 r i := by
    funext ax; apply Fin.ext
    match ax with
    | ⟨0, _⟩ => rfl
    | ⟨1, _⟩ =>
      exact (dot_S16384x1024_S1024x512_S16384x512_1_0_0_1_n_n.lhsIdx_val_of_single rfl _ _).trans
        (contrEquiv1_symm_val dot_S16384x1024_S1024x512_S16384x512_1_0_0_1_n_n 1024 rfl rfl i)
  have hr : dot_S16384x1024_S1024x512_S16384x512_1_0_0_1_n_n.rhsIdx (ix2 r (⟨n.val * 16 + d.val, by omega⟩ : Fin 512))
      ((contrEquiv1 dot_S16384x1024_S1024x512_S16384x512_1_0_0_1_n_n 1024 rfl rfl).symm i)
        = ix2 i (⟨n.val * 16 + d.val, by omega⟩ : Fin 512) := by
    funext ax; apply Fin.ext
    match ax with
    | ⟨0, _⟩ =>
      exact (dot_S16384x1024_S1024x512_S16384x512_1_0_0_1_n_n.rhsIdx_val_of_single rfl _ _).trans
        (contrEquiv1_symm_val dot_S16384x1024_S1024x512_S16384x512_1_0_0_1_n_n 1024 rfl rfl i)
    | ⟨1, _⟩ => rfl
  rw [hl, hr]

/-- The reference's result at (r, d) is lane d of the routing of row r's predictions. -/
theorem ref_apply (r : Fin 16384) (d : Fin 16) :
    (shapeCast S16384x16 (res_main_v87 V0) shapeCasts_S16384x1x16_S16384x16 : FVec Ideal S16384x16 .f32) (ix2 r d)
      = route (predictions (refX V0) (refW V0) r) d := by
  rw [shapeCast_a1d_ad_apply]
  show rowD (res_main_v87 V0) r d = _
  rw [v87_eq, rRoundOut_row, v60_eq, rRoundLogits_row, v31_eq, rRoundLogits_row, rB0_row, rhat_row]
  rfl

/-- So the reference's result is G of its argument arrays. -/
theorem result_eq :
    (shapeCast S16384x16 (res_main_v87 V0) shapeCasts_S16384x1x16_S16384x16 : FVec Ideal S16384x16 .f32) = G (refX V0) (refW V0) := by
  funext i
  obtain ⟨r, d, rfl⟩ : ∃ (r : Fin 16384) (d : Fin 16), i = ix2 r d := ⟨i 0, i 1, eq_ix2 i⟩
  rw [G_apply]
  exact ref_apply V0 r d

end Cert.ReferenceIdeal.Rounds

end
-- ==== Proof.lean ====
/-
  Capsule routing by agreement: a fused kernel against its reference, equal over the extended reals.

  Both programs take x : f32[16384, 1024] and a weight array w : f32[1024, 512] and return f32[16384, 16]. Row by row:
  the row of x times w gives 32 predicted capsules of 16 lanes; three rounds of routing follow from zero logits — a
  softmax of the logits over the capsules weighs the predictions into one vector, the vector is squashed by
  (q / (1 + q)) / sqrt(q + ε) with q its squared norm, and each logit grows by its prediction's inner product with the
  squashed vector — and the third round's squashed vector is the row of the result (Spec: the function G).

  The kernel walks 16 blocks of 1024 rows, rounds its matmul operands to bf16 (the identity on the extended reals), takes
  its sums and maxima lane-wise on the vector unit and keeps reduced axes by shape casts; the reference does all rows at
  once with the host's reductions from an initial value, broadcast_in_dim, and a row-by-row contraction for the
  agreement. Read at the ideal instance every one of these is the same finite sum, running maximum, quotient,
  exponential or square root of extended reals, and sums of extended reals are commutative and associative; so no
  finiteness of the inputs is needed, and the precondition is never opened. The kernel's run leaves G of its arguments in
  the result (KernelRound: one row of the body; KernelWhole: the 16 blocks tile the array), the reference's run leaves G of
  its arguments (RefRound, over the reference's generated run), and arguments that agree give the same G.

  The three frames are the generated ones (the reference's is its run with the result dropped); the idealization rewrote
  nothing, so what it must preserve is trivially so.
-/
import proofs.«120435_j69002944578095_1_alg».proof.Defs
import proofs.«120435_j69002944578095_1_alg».proof.Proof.Gen.Kernel
import proofs.«120435_j69002944578095_1_alg».proof.Proof.Gen.Kernel.Skeleton
import proofs.«120435_j69002944578095_1_alg».proof.Proof.Gen.Kernel.Launch
import proofs.«120435_j69002944578095_1_alg».proof.Proof.Gen.Kernel.Points
import proofs.«120435_j69002944578095_1_alg».proof.Proof.Gen.Kernel.Frame
import proofs.«120435_j69002944578095_1_alg».proof.Proof.Gen.KernelIdeal
import proofs.«120435_j69002944578095_1_alg».proof.Proof.Gen.KernelIdeal.Skeleton
import proofs.«120435_j69002944578095_1_alg».proof.Proof.Gen.KernelIdeal.Launch
import proofs.«120435_j69002944578095_1_alg».proof.Proof.Gen.KernelIdeal.Points
import proofs.«120435_j69002944578095_1_alg».proof.Proof.Gen.KernelIdeal.Frame
import proofs.«120435_j69002944578095_1_alg».proof.Proof.Gen.ReferenceIdeal
import proofs.«120435_j69002944578095_1_alg».proof.Proof.Gen.Pre_finite_inputs
import proofs.«120435_j69002944578095_1_alg».proof.Proof.Gen.ReferenceIdeal.Run
import proofs.«120435_j69002944578095_1_alg».proof.Proof.KernelWhole
import proofs.«120435_j69002944578095_1_alg».proof.Proof.RefRound
import Idealize.ShloMosaic.Adequacy
import Idealize.ShloMosaic.Init

noncomputable section

namespace Cert.Proof

open Idealize.ShloMosaic Idealize.SL.Sem Cert.Routing

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at G of the arguments they were launched with; the arguments agree. -/
theorem algebraic : Cert.algebraic_KernelIdeal_ReferenceIdeal := by
  intro m ρ m' ρ' _ hagree
  refine ⟨fun c => G (Cert.KernelIdeal.Whole.argX m c) (Cert.KernelIdeal.Whole.argW m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  have hx : Cert.ReferenceIdeal.Rounds.refX (Idealize.ShloMosaic.StableHlo.launchContents m' c) = Cert.KernelIdeal.Whole.argX m c :=
    (hagree c).1
  have hw : Cert.ReferenceIdeal.Rounds.refW (Idealize.ShloMosaic.StableHlo.launchContents m' c) = Cert.KernelIdeal.Whole.argW m c :=
    (hagree c).2
  refine (Cert.ReferenceIdeal.Rounds.result_eq (Idealize.ShloMosaic.StableHlo.launchContents m' c)).trans ?_
  rw [hx, hw]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
